-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x2048 : Shape := ⟨2, ![2048, 2048]⟩
abbrev S2048 : Shape := ⟨1, ![2048]⟩
abbrev S8x16x2048 : Shape := ⟨3, ![8, 16, 2048]⟩
abbrev S8x2048x16 : Shape := ⟨3, ![8, 2048, 16]⟩
abbrev S8 : Shape := ⟨1, ![8]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8x16x2048 : S_.BroadcastsInDim S8x16x2048 (![] : Fin 0 → Fin S8x16x2048.rank)
  reducesTo_S8x16x2048_S_d0_1_2 : S8x16x2048.ReducesTo [0, 1, 2] S_
  bcast_S_S8x2048x16 : S_.BroadcastsInDim S8x2048x16 (![] : Fin 0 → Fin S8x2048x16.rank)
  reducesTo_S8x2048x16_S_d0_1_2 : S8x2048x16.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8x2048x16 .f32) (main_arg5 : FVec F S8 .f32) (main_v13 : IVec S_ 1) (main_v16 : IVec S8x16x2048 1) : IVec S_ 1 :=
  let main_c_5 : IVec S_ 1 := constantI S_ 1 1#1
  let main_v17 : IVec S_ 1 := (fun x v => Host.reduce IntOp.andi x v reducesTo_S8x16x2048_S_d0_1_2 h_S_) main_v16 main_c_5
  let main_v18 : IVec S_ 1 := andi main_v13 main_v17
  let main_v19 : FVec F S8x2048x16 .f32 := Host.absf main_arg4
  let main_cst_6 : FVec F S_ .f32 := constant S_ .f32 0x7F800000#32
  let main_v20 : FVec F S8x2048x16 .f32 := broadcastInDim S8x2048x16 ![] bcast_S_S8x2048x16 main_cst_6
  let main_v21 : IVec S8x2048x16 1 := cmpf .olt main_v19 main_v20
  let main_c_7 : IVec S_ 1 := constantI S_ 1 1#1
  let main_v22 : IVec S_ 1 := (fun x v => Host.reduce IntOp.andi x v reducesTo_S8x2048x16_S_d0_1_2 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S32768x2048 .f32) (main_arg1 : FVec F S2048x2048 .f32) (main_arg2 : FVec F S2048 .f32) (main_arg3 : FVec F S8x16x2048 .f32) (main_arg4 : FVec F S8x2048x16 .f32) (main_arg5 : FVec F S8 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S8x16x2048 .f32 := Host.absf main_arg3
  let main_cst_4 : FVec F S_ .f32 := constant S_ .f32 0x7F800000#32
  let main_v15 : FVec F S8x16x2048 .f32 := broadcastInDim S8x16x2048 ![] bcast_S_S8x16x2048 main_cst_4
  let main_v16 : IVec S8x16x2048 1 := cmpf .olt main_v14 main_v15
  fn_part1 (F := F) main_arg4 main_arg5 main_v13 main_v16
-- ==== Kernel.lean ====
abbrev S32768x2048 : Shape := ⟨2, ![32768, 2048]⟩
abbrev S2048x2048 : Shape := ⟨2, ![2048, 2048]⟩
abbrev S2048 : Shape := ⟨1, ![2048]⟩
abbrev S8x16x2048 : Shape := ⟨3, ![8, 16, 2048]⟩
abbrev S8x2048x16 : Shape := ⟨3, ![8, 2048, 16]⟩
abbrev S8 : Shape := ⟨1, ![8]⟩
abbrev S8x2048x2048 : Shape := ⟨3, ![8, 2048, 2048]⟩
abbrev S1x2048x2048 : Shape := ⟨3, ![1, 2048, 2048]⟩
abbrev S8x1x1 : Shape := ⟨3, ![8, 1, 1]⟩
abbrev S1024x2048 : Shape := ⟨2, ![1024, 2048]⟩
abbrev S1x2048 : Shape := ⟨2, ![1, 2048]⟩

abbrev nBuf : Space → Nat
  | .hbm => 16
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048, .f32⟩
  | .hbm, ⟨3, _⟩ => ⟨S8x16x2048, .f32⟩
  | .hbm, ⟨4, _⟩ => ⟨S8x2048x16, .f32⟩
  | .hbm, ⟨5, _⟩ => ⟨S8, .f32⟩
  | .hbm, ⟨6, _⟩ => ⟨S8x2048x2048, .f32⟩
  | .hbm, ⟨7, _⟩ => ⟨S1x2048x2048, .f32⟩
  | .hbm, ⟨8, _⟩ => ⟨S8x1x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .bf16⟩
  | .hbm, ⟨14, _⟩ => ⟨S32768x2048, .bf16⟩
  | .hbm, ⟨15, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S2048, .f32⟩
  | .local _ .vmem, ⟨5, _⟩ => ⟨S1024x2048, .f32⟩
  | .local _ .vmem, ⟨6, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S2048x2048_S1x2048x2048_1_2 : S2048x2048.BroadcastsInDim S1x2048x2048 (![1, 2] : Fin 2 → Fin S1x2048x2048.rank)
  bcast_S8_S8x1x1_0 : S8.BroadcastsInDim S8x1x1 (![0] : Fin 1 → Fin S8x1x1.rank)
  bcast_S8x1x1_S8x2048x2048_0_1_2 : S8x1x1.BroadcastsInDim S8x2048x2048 (![0, 1, 2] : Fin 3 → Fin S8x2048x2048.rank)
  bcast_S1x2048x2048_S8x2048x2048_0_1_2 : S1x2048x2048.BroadcastsInDim S8x2048x2048 (![0, 1, 2] : Fin 3 → Fin S8x2048x2048.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S8x2048x16_S8x16x2048_S8x2048x2048_2_1_1_2_0_0_wf : DotDims.WF S8x2048x16 S8x16x2048 S8x2048x2048 [2] [1] [1] [2] [0] [0]
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .bf16 = 32 ∨ (Rect.block (s := S32768x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S32768x2048.size a
  hwx0_3 : ∀ i : grid0.Coords, EltTy.bits .f32 = 32 ∨ (Rect.block (s := S32768x2048) S1024x2048.size (cc0_transform_3 i) (hinb0_3 i)).WholeWords (EltTy.packing .f32)

variable [Facts₀]

def dot_S8x2048x16_S8x16x2048_S8x2048x2048_2_1_1_2_0_0 : DotDims S8x2048x16 S8x16x2048 S8x2048x2048 where
  lhsContracting := [2]
  rhsContracting := [1]
  lhsNonContracting := [1]
  rhsNonContracting := [2]
  lhsBatch := [0]
  rhsBatch := [0]
  wf := dot_S8x2048x16_S8x16x2048_S8x2048x2048_2_1_1_2_0_0_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_v8) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x2048 : Shape := ⟨2, ![2048, 2048]⟩
abbrev S2048 : Shape := ⟨1, ![2048]⟩
abbrev S8x16x2048 : Shape := ⟨3, ![8, 16, 2048]⟩
abbrev S8x2048x16 : Shape := ⟨3, ![8, 2048, 16]⟩
abbrev S8 : Shape := ⟨1, ![8]⟩
abbrev S1x2048 : Shape := ⟨2, ![1, 2048]⟩
abbrev S8x4096x2048 : Shape := ⟨3, ![8, 4096, 2048]⟩
abbrev S8x4096x16 : Shape := ⟨3, ![8, 4096, 16]⟩
abbrev S8x1x1 : Shape := ⟨3, ![8, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048, .f32⟩
  | .hbm, ⟨3, _⟩ => ⟨S8x16x2048, .f32⟩
  | .hbm, ⟨4, _⟩ => ⟨S8x2048x16, .f32⟩
  | .hbm, ⟨5, _⟩ => ⟨S8, .f32⟩
  | .hbm, ⟨6, _⟩ => ⟨S32768x2048, .f32⟩
  | .hbm, ⟨7, _⟩ => ⟨S1x2048, .f32⟩
  | .hbm, ⟨8, _⟩ => ⟨S32768x2048, .f32⟩
  | .hbm, ⟨9, _⟩ => ⟨S32768x2048, .f32⟩
  | .hbm, ⟨10, _⟩ => ⟨S8x4096x2048, .f32⟩
  | .hbm, ⟨11, _⟩ => ⟨S8x4096x16, .f32⟩
  | .hbm, ⟨12, _⟩ => ⟨S8x4096x2048, .f32⟩
  | .hbm, ⟨13, _⟩ => ⟨S8x1x1, .f32⟩
  | .hbm, ⟨14, _⟩ => ⟨S8x4096x2048, .f32⟩
  | .hbm, ⟨15, _⟩ => ⟨S8x4096x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  shapeCasts_S32768x2048_S8x4096x2048 : S32768x2048.ShapeCasts S8x4096x2048
  bcast_S8_S8x1x1_0 : S8.BroadcastsInDim S8x1x1 (![0] : Fin 1 → Fin S8x1x1.rank)
  bcast_S8x1x1_S8x4096x2048_0_1_2 : S8x1x1.BroadcastsInDim S8x4096x2048 (![0, 1, 2] : Fin 3 → Fin S8x4096x2048.rank)
  shapeCasts_S8x4096x2048_S32768x2048 : S8x4096x2048.ShapeCasts S32768x2048
  dot_S32768x2048_S2048x2048_S32768x2048_1_1_0_0_n_n_wf : DotDims.WF S32768x2048 S2048x2048 S32768x2048 [1] [1] [0] [0] [] []
  dot_S8x4096x2048_S8x16x2048_S8x4096x16_2_2_1_1_0_0_wf : DotDims.WF S8x4096x2048 S8x16x2048 S8x4096x16 [2] [2] [1] [1] [0] [0]
  dot_S8x4096x16_S8x2048x16_S8x4096x2048_2_2_1_1_0_0_wf : DotDims.WF S8x4096x16 S8x2048x16 S8x4096x2048 [2] [2] [1] [1] [0] [0]

variable [Facts₀]

def dot_S32768x2048_S2048x2048_S32768x2048_1_1_0_0_n_n : DotDims S32768x2048 S2048x2048 S32768x2048 where
  lhsContracting := [1]
  rhsContracting := [1]
  lhsNonContracting := [0]
  rhsNonContracting := [0]
  lhsBatch := []
  rhsBatch := []
  wf := dot_S32768x2048_S2048x2048_S32768x2048_1_1_0_0_n_n_wf
def dot_S8x4096x2048_S8x16x2048_S8x4096x16_2_2_1_1_0_0 : DotDims S8x4096x2048 S8x16x2048 S8x4096x16 where
  lhsContracting := [2]
  rhsContracting := [2]
  lhsNonContracting := [1]
  rhsNonContracting := [1]
  lhsBatch := [0]
  rhsBatch := [0]
  wf := dot_S8x4096x2048_S8x16x2048_S8x4096x16_2_2_1_1_0_0_wf
def dot_S8x4096x16_S8x2048x16_S8x4096x2048_2_2_1_1_0_0 : DotDims S8x4096x16 S8x2048x16 S8x4096x2048 where
  lhsContracting := [2]
  rhsContracting := [2]
  lhsNonContracting := [1]
  rhsNonContracting := [1]
  lhsBatch := [0]
  rhsBatch := [0]
  wf := dot_S8x4096x16_S8x2048x16_S8x4096x2048_2_2_1_1_0_0_wf

class Facts : Prop extends Facts₀ where

variable [Facts]
-- ==== Proof.Body.lean ====
/-
  What one grid point's body computes, read at an entry. The body multiplies its block of rows `v0 : [1024, 2048]` by
  its segment's weight `v2 : [1, 2048, 2048]` (the unit axis dropped), contracting the second axis of BOTH operands
  into a zero accumulator, and adds the bias vector `v5 : [2048]` laid along every row. Over the extended reals entry
  `(p, q)` of the result is `Σ_k v0 (p, k) · v2 (0, q, k) + v5 q`.
-/
import proofs.«159621_j71743133712455_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices -/

theorem lhs_row (i : S1024x2048.Idx) (k : dot_S1024x2048_S2048x2048_S1024x2048_1_1_0_0_n_n.contr.Idx) :
    (dot_S1024x2048_S2048x2048_S1024x2048_1_1_0_0_n_n.lhsIdx i k 0).val = (i 0).val := by
  unfold DotDims.lhsIdx
  rw [dif_neg (show ¬(0 : Fin S1024x2048.rank) ∈ dot_S1024x2048_S2048x2048_S1024x2048_1_1_0_0_n_n.lhsBatch by decide),
    dif_pos (show (0 : Fin S1024x2048.rank) ∈ dot_S1024x2048_S2048x2048_S1024x2048_1_1_0_0_n_n.lhsNonContracting by decide)]
  rfl

theorem lhs_contr (i : S1024x2048.Idx) (k : dot_S1024x2048_S2048x2048_S1024x2048_1_1_0_0_n_n.contr.Idx) :
    (dot_S1024x2048_S2048x2048_S1024x2048_1_1_0_0_n_n.lhsIdx i k 1).val = (k ⟨0, by decide⟩).val :=
  dot_S1024x2048_S2048x2048_S1024x2048_1_1_0_0_n_n.lhsIdx_val_of_single rfl i k

theorem rhs_row (i : S1024x2048.Idx) (k : dot_S1024x2048_S2048x2048_S1024x2048_1_1_0_0_n_n.contr.Idx) :
    (dot_S1024x2048_S2048x2048_S1024x2048_1_1_0_0_n_n.rhsIdx i k 0).val = (i 1).val := by
  unfold DotDims.rhsIdx
  rw [dif_neg (show ¬(0 : Fin S2048x2048.rank) ∈ dot_S1024x2048_S2048x2048_S1024x2048_1_1_0_0_n_n.rhsBatch by decide),
    dif_pos (show (0 : Fin S2048x2048.rank) ∈ dot_S1024x2048_S2048x2048_S1024x2048_1_1_0_0_n_n.rhsNonContracting by decide)]
  rfl

theorem rhs_contr (i : S1024x2048.Idx) (k : dot_S1024x2048_S2048x2048_S1024x2048_1_1_0_0_n_n.contr.Idx) :
    (dot_S1024x2048_S2048x2048_S1024x2048_1_1_0_0_n_n.rhsIdx i k 1).val = (k ⟨0, by decide⟩).val :=
  dot_S1024x2048_S2048x2048_S1024x2048_1_1_0_0_n_n.rhsIdx_val_of_single rfl i k

/-- The product's sum over its contraction index, at output `(p, q)`, is the sum over `k` of the left operand at
    `(p, k)` times the right operand at `(q, k)`: both operands are contracted along their second axis. -/
theorem contr_sum (l : S1024x2048.Idx → EReal) (r : S2048x2048.Idx → EReal) (p : Fin 1024) (q : Fin 2048) :
    ∑ k : dot_S1024x2048_S2048x2048_S1024x2048_1_1_0_0_n_n.contr.Idx,
        l (dot_S1024x2048_S2048x2048_S1024x2048_1_1_0_0_n_n.lhsIdx (ix2 p q) k)
          * r (dot_S1024x2048_S2048x2048_S1024x2048_1_1_0_0_n_n.rhsIdx (ix2 p q) k)
      = ∑ k : Fin 2048, l (ix2 p k) * r (ix2 q k) := by
  rw [← Equiv.sum_comp (contrEquiv1 dot_S1024x2048_S2048x2048_S1024x2048_1_1_0_0_n_n 2048 rfl rfl).symm]
  refine Finset.sum_congr rfl fun k _ => ?_
  have hk := contrEquiv1_symm_val dot_S1024x2048_S2048x2048_S1024x2048_1_1_0_0_n_n 2048 rfl rfl k
  have el : dot_S1024x2048_S2048x2048_S1024x2048_1_1_0_0_n_n.lhsIdx (ix2 p q)
      ((contrEquiv1 dot_S1024x2048_S2048x2048_S1024x2048_1_1_0_0_n_n 2048 rfl rfl).symm k) = ix2 p k :=
    funext fun a => Fin.ext (by
      match a with
      | ⟨0, _⟩ => exact lhs_row _ _
      | ⟨1, _⟩ => exact (lhs_contr _ _).trans hk)
  have er : dot_S1024x2048_S2048x2048_S1024x2048_1_1_0_0_n_n.rhsIdx (ix2 p q)
      ((contrEquiv1 dot_S1024x2048_S2048x2048_S1024x2048_1_1_0_0_n_n 2048 rfl rfl).symm k) = ix2 q k :=
    funext fun a => Fin.ext (by
      match a with
      | ⟨0, _⟩ => exact rhs_row _ _
      | ⟨1, _⟩ => exact (rhs_contr _ _).trans hk)
  rw [el, er]

/-! ## The body's one store -/

/-- Entry `(p, q)` of what the body stores: row `p` of the block against row `q` of the segment's weight, plus the
    bias at `q`. -/
theorem pay_apply (v0 : FVec Ideal S1024x2048 .bf16) (v2 : FVec Ideal S1x2048x2048 .bf16) (v5 : FVec Ideal S2048 .f32)
    (p : Fin 1024) (q : Fin 2048) :
    k0_pay1 (F := Ideal) v0 v2 v5 (ix2 p q)
      = (∑ k : Fin 2048, (v0 (ix2 p k) : EReal) * (v2 (ix3 (0 : Fin 1) q k) : EReal)) + (v5 (ix1 q) : EReal) := by
  unfold k0_pay1
  show addf (matmul dot_S1024x2048_S2048x2048_S1024x2048_1_1_0_0_n_n none (shapeCast S1024x2048 v0 shapeCasts_S1024x2048_S1024x2048)
        (shapeCast S2048x2048 v2 shapeCasts_S1x2048x2048_S2048x2048) (constant S1024x2048 .f32 0x00000000#32))
      (broadcastTo S1024x2048 (shapeCast S1x2048 v5 shapeCasts_S2048_S1x2048) broadcasts_S1x2048_S1024x2048) (ix2 p q) = _
  rw [addf_apply, shapeCast_self, broadcastTo_1b_ab_apply, shapeCast_a_1a_apply]
  refine congrArg (· + (v5 (ix1 q) : EReal)) ?_
  refine (Ideal.matmul_constant_zero_apply dot_S1024x2048_S2048x2048_S1024x2048_1_1_0_0_n_n none v0
    (shapeCast S2048x2048 v2 shapeCasts_S1x2048x2048_S2048x2048) (ix2 p q)).trans ?_
  rw [contr_sum]
  exact Finset.sum_congr rfl fun k _ => by rw [shapeCast_1ab_ab_apply]

end Cert.KernelIdeal.Body

end
-- ==== Proof.Spec.lean ====
/-
  The mathematics of a linear layer with per-segment low-rank corrections, stated once over literal shapes.

  The rows of `x : [32768, 2048]` fall into 8 consecutive segments of 4096 rows; segment `e` carries a rank-16
  correction `b e · a e` of the shared weight `W`, scaled by `s e`. Two arrangements of the same result:

  * `fused`: every row is multiplied by its segment's MERGED weight `W + s e · (b e · a e)`, then the bias is added;
  * `split`: the base product `x · Wᵀ + bias` and, separately, `((x · (a e)ᵀ) · (b e)ᵀ) · s e`, then their sum.

  Over the reals the two agree by distributivity and an exchange of the two finite sums (`real_law`); over the extended
  reals distributivity fails at the infinities, so the law is stated for arrays all of whose entries are real
  (`fused_merged_eq_split`).
-/
import Idealize.ShloMosaic.Lib.ValueIdx
import Idealize.ShloMosaic.PureOps.Ideal

noncomputable section

namespace Cert.SegLinear

open Idealize.ShloMosaic Idealize.ShloMosaic.ValueIdx

/-- The segment of row `n`: rows `4096 e … 4096 e + 4095` belong to segment `e`. -/
def seg (n : Fin 32768) : Fin 8 := ⟨n.val / 4096, by have := n.isLt; omega⟩

theorem seg_val (n : Fin 32768) : (seg n).val = n.val / 4096 := rfl

/-- The merged weight of segment `e` at `(o, d)`: `W (o, d) + s e · Σ_r b (e, o, r) · a (e, r, d)`. -/
def merged (W : (⟨2, ![2048, 2048]⟩ : Shape).Idx → EReal) (a : (⟨3, ![8, 16, 2048]⟩ : Shape).Idx → EReal)
    (b : (⟨3, ![8, 2048, 16]⟩ : Shape).Idx → EReal) (s : (⟨1, ![8]⟩ : Shape).Idx → EReal) :
    (⟨3, ![8, 2048, 2048]⟩ : Shape).Idx → EReal :=
  fun j => W (ix2 (j 1) (j 2)) + s (ix1 (j 0)) * ∑ r : Fin 16, b (ix3 (j 0) (j 1) r) * a (ix3 (j 0) r (j 2))

/-- Every row against its segment's weight `M` (contracting the feature axis of both), plus the bias. -/
def fused (x : (⟨2, ![32768, 2048]⟩ : Shape).Idx → EReal) (M : (⟨3, ![8, 2048, 2048]⟩ : Shape).Idx → EReal)
    (bias : (⟨1, ![2048]⟩ : Shape).Idx → EReal) : (⟨2, ![32768, 2048]⟩ : Shape).Idx → EReal :=
  fun i => (∑ d : Fin 2048, x (ix2 (i 0) d) * M (ix3 (seg (i 0)) (i 1) d)) + bias (ix1 (i 1))

/-- The base product plus bias, and the low-rank path taken in two steps and scaled last. -/
def split (x : (⟨2, ![32768, 2048]⟩ : Shape).Idx → EReal) (W : (⟨2, ![2048, 2048]⟩ : Shape).Idx → EReal)
    (bias : (⟨1, ![2048]⟩ : Shape).Idx → EReal) (a : (⟨3, ![8, 16, 2048]⟩ : Shape).Idx → EReal)
    (b : (⟨3, ![8, 2048, 16]⟩ : Shape).Idx → EReal) (s : (⟨1, ![8]⟩ : Shape).Idx → EReal) :
    (⟨2, ![32768, 2048]⟩ : Shape).Idx → EReal :=
  fun i => ((∑ d : Fin 2048, x (ix2 (i 0) d) * W (ix2 (i 1) d)) + bias (ix1 (i 1)))
    + (∑ r : Fin 16, (∑ d : Fin 2048, x (ix2 (i 0) d) * a (ix3 (seg (i 0)) r d)) * b (ix3 (seg (i 0)) (i 1) r))
      * s (ix1 (seg (i 0)))

/-- Over the reals: `Σ_d x_d (w_d + s Σ_r b_r a_rd) + β = (Σ_d x_d w_d + β) + (Σ_r (Σ_d x_d a_rd) b_r) s`. -/
theorem real_law {D R : Type} [Fintype D] [Fintype R] (x w : D → ℝ) (a : R → D → ℝ) (b : R → ℝ) (s β : ℝ) :
    (∑ d, x d * (w d + s * ∑ r, b r * a r d)) + β
      = ((∑ d, x d * w d) + β) + (∑ r, (∑ d, x d * a r d) * b r) * s := by
  have h : ∑ d, x d * (s * ∑ r, b r * a r d) = (∑ r, (∑ d, x d * a r d) * b r) * s := by
    simp only [Finset.mul_sum, Finset.sum_mul]
    rw [Finset.sum_comm]
    exact Finset.sum_congr rfl fun r _ => Finset.sum_congr rfl fun d _ => by ring
  simp only [mul_add, Finset.sum_add_distrib, h]
  ring

/-- A finite sum of reals, each read as an extended real, is the real sum read as an extended real. -/
theorem coe_sum {ι : Type} (t : Finset ι) (f : ι → ℝ) : ∑ k ∈ t, ((f k : ℝ) : EReal) = ((∑ k ∈ t, f k : ℝ) : EReal) := by
  classical
  induction t using Finset.induction_on with
  | empty => simp
  | insert k t hk ih => rw [Finset.sum_insert hk, Finset.sum_insert hk, ih, EReal.coe_add]

/-- On arrays of real entries the fused arrangement over the merged weights is the split arrangement. -/
theorem fused_merged_eq_split (x : (⟨2, ![32768, 2048]⟩ : Shape).Idx → ℝ) (W : (⟨2, ![2048, 2048]⟩ : Shape).Idx → ℝ)
    (bias : (⟨1, ![2048]⟩ : Shape).Idx → ℝ) (a : (⟨3, ![8, 16, 2048]⟩ : Shape).Idx → ℝ)
    (b : (⟨3, ![8, 2048, 16]⟩ : Shape).Idx → ℝ) (s : (⟨1, ![8]⟩ : Shape).Idx → ℝ) :
    fused (fun i => (x i : EReal)) (merged (fun i => (W i : EReal)) (fun i => (a i : EReal)) (fun i => (b i : EReal))
        (fun i => (s i : EReal))) (fun i => (bias i : EReal))
      = split (fun i => (x i : EReal)) (fun i => (W i : EReal)) (fun i => (bias i : EReal)) (fun i => (a i : EReal))
          (fun i => (b i : EReal)) (fun i => (s i : EReal)) := by
  funext i
  have e := real_law (fun d : Fin 2048 => x (ix2 (i 0) d)) (fun d => W (ix2 (i 1) d))
    (fun (r : Fin 16) d => a (ix3 (seg (i 0)) r d)) (fun r => b (ix3 (seg (i 0)) (i 1) r)) (s (ix1 (seg (i 0)))) (bias (ix1 (i 1)))
  show (∑ d : Fin 2048, (x (ix2 (i 0) d) : EReal) * ((W (ix2 (i 1) d) : EReal) + (s (ix1 (seg (i 0))) : EReal)
      * ∑ r : Fin 16, (b (ix3 (seg (i 0)) (i 1) r) : EReal) * (a (ix3 (seg (i 0)) r d) : EReal))) + (bias (ix1 (i 1)) : EReal)
    = ((∑ d : Fin 2048, (x (ix2 (i 0) d) : EReal) * (W (ix2 (i 1) d) : EReal)) + (bias (ix1 (i 1)) : EReal))
      + (∑ r : Fin 16, (∑ d : Fin 2048, (x (ix2 (i 0) d) : EReal) * (a (ix3 (seg (i 0)) r d) : EReal))
          * (b (ix3 (seg (i 0)) (i 1) r) : EReal)) * (s (ix1 (seg (i 0))) : EReal)
  simp only [← EReal.coe_mul, ← EReal.coe_add, coe_sum]
  exact congrArg (fun r : ℝ => (r : EReal)) e

end Cert.SegLinear

end
-- ==== Proof.Whole.lean ====
/-
  From what each grid point writes back to the whole result array. Point `t` of the 32 holds rows
  `1024 t … 1024 t + 1023` of the first operand, the weight of segment `t / 4` (four consecutive points share a
  segment, and `(1024 t + p) / 4096 = t / 4`), and the whole bias vector; it writes rows `1024 t …` of the result.
  So what it writes is block `t` of ONE array, `fused X M B` of the operand arrays, and the 32 blocks cover the result.
-/
import proofs.«159621_j71743133712455_2_alg».proof.Proof.Gen.KernelIdeal.Value
import proofs.«159621_j71743133712455_2_alg».proof.Proof.Body
import proofs.«159621_j71743133712455_2_alg».proof.Proof.Spec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.SegLinear
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`, decided over the 32 points: rows move with `t`, the weight with `t / 4`, the bias
    stays. -/
theorem idx_facts : ∀ t : Fin cfg0.N,
    win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 1) = 0
    ∧ win0_3.index t (0 : Fin 2) = t.val ∧ win0_3.index t (1 : Fin 2) = 0 :=
  (by decide +kernel : ∀ t : Fin grid0.N, _)

theorem t_lt (t : Fin cfg0.N) : t.val < 32 := by
  have h : cfg0.N = 32 := N_0
  have := t.isLt
  omega

/-- Row `p` of point `t`'s block is row `1024 t + p` of the array. -/
def rowOf (t : Fin cfg0.N) (p : Fin 1024) : Fin 32768 := ⟨t.val * 1024 + p.val, by have := t_lt t; have := p.isLt; omega⟩

/-! ## The input blocks, read at an entry -/

/-- Point `t`'s block of the first operand at `(p, k)` is the array at `(1024 t + p, k)`. -/
theorem rows_apply (c : Dev nD) (t : Fin cfg0.N) (p : Fin 1024) (k : Fin 2048) :
    (iblk m c 0 t : FVec Ideal S1024x2048 .bf16) (ix2 p k) = (V m c main_v8 : S32768x2048.Idx → EReal) (ix2 (rowOf t p) k) := by
  obtain ⟨e0, e1, -⟩ := idx_facts t
  unfold iblk
  rw [View.read_apply]
  show V m c main_v8 _ = V m c main_v8 _
  congr 1
  funext a
  apply Fin.ext
  match a with
  | ⟨0, _⟩ => show win0_0.index t 0 * 1024 + 1 * p.val = t.val * 1024 + p.val; rw [e0]; omega
  | ⟨1, _⟩ => show win0_0.index t 1 * 2048 + 1 * k.val = k.val; rw [e1]; omega

/-- Point `t`'s block of the second operand at `(0, q, k)` is the array at `(t / 4, q, k)`, and `t / 4` is the
    segment of every row of the point. -/
theorem weight_apply (c : Dev nD) (t : Fin cfg0.N) (p : Fin 1024) (q k : Fin 2048) :
    (iblk m c 1 t : FVec Ideal S1x2048x2048 .bf16) (ix3 (0 : Fin 1) q k)
      = (V m c main_v7 : S8x2048x2048.Idx → EReal) (ix3 (seg (rowOf t p)) q k) := by
  obtain ⟨-, -, e2, e3, e4, -⟩ := idx_facts t
  have ht := t_lt t
  have hp := p.isLt
  unfold iblk
  rw [View.read_apply]
  show V m c main_v7 _ = V m c main_v7 _
  congr 1
  funext a
  apply Fin.ext
  match a with
  | ⟨0, _⟩ => show win0_1.index t 0 * 1 + 1 * 0 = (t.val * 1024 + p.val) / 4096; rw [e2]; omega
  | ⟨1, _⟩ => show win0_1.index t 1 * 2048 + 1 * q.val = q.val; rw [e3]; omega
  | ⟨2, _⟩ => show win0_1.index t 2 * 2048 + 1 * k.val = k.val; rw [e4]; omega

/-- Every point's block of the bias is the whole vector. -/
theorem bias_apply (c : Dev nD) (t : Fin cfg0.N) (q : Fin 2048) :
    (iblk m c 2 t : FVec Ideal S2048 .f32) (ix1 q) = (V m c main_arg2 : S2048.Idx → EReal) (ix1 q) := by
  obtain ⟨-, -, -, -, -, e5, -⟩ := idx_facts t
  unfold iblk
  rw [View.read_apply]
  show V m c main_arg2 _ = V m c main_arg2 _
  congr 1
  funext a
  apply Fin.ext
  match a with
  | ⟨0, _⟩ => show win0_2.index t 0 * 2048 + 1 * q.val = q.val; rw [e5]; omega

/-! ## One point -/

/-- A body run on blocks that are the stated pieces of arrays `X`, `M`, `B` stores, at entry `(p, q)`, the fused
    arrangement of the arrays at the array index `j` that the entry stands for. -/
theorem point_eq (x0 : FVec Ideal S1024x2048 .bf16) (x1 : FVec Ideal S1x2048x2048 .bf16) (x2 : FVec Ideal S2048 .f32)
    (X : S32768x2048.Idx → EReal) (M : S8x2048x2048.Idx → EReal) (B : S2048.Idx → EReal)
    (n : Fin 32768) (p : Fin 1024) (q : Fin 2048) (j : S32768x2048.Idx)
    (h0 : ∀ k : Fin 2048, x0 (ix2 p k) = X (ix2 n k))
    (h1 : ∀ k : Fin 2048, x1 (ix3 (0 : Fin 1) q k) = M (ix3 (seg n) q k))
    (h2 : x2 (ix1 q) = B (ix1 q)) (hj0 : j 0 = n) (hj1 : j 1 = q) :
    k0_pay1 (F := Ideal) x0 x1 x2 (ix2 p q) = fused X M B j := by
  rw [Body.pay_apply]
  show _ = (∑ d : Fin 2048, X (ix2 (j 0) d) * M (ix3 (seg (j 0)) (j 1) d)) + B (ix1 (j 1))
  rw [hj0, hj1, h2]
  exact congrArg (· + B (ix1 q)) (Finset.sum_congr rfl fun k _ => by rw [h0 k, h1 k])

/-! ## Every point, and the array -/

/-- What point `t` writes back is block `t` of the fused arrangement of the operand arrays as the launch finds them. -/
theorem flushed_eq (c : Dev nD) (t : Fin cfg0.N) :
    (dats m 0 c).flushed 3 t = ((cfg0.win 3).blk t).view.read (Elt Ideal)
      (fused (V m c main_v8) (V m c main_v7) (V m c main_arg2)) := by
  rw [Value.flushed3]
  unfold out0_3
  rw [View.canon_unit_zero hz2]
  simp only [View.ld_unit_zero (S := S1024x2048) hz2, View.ld_unit_zero (S := S1x2048x2048) hz3, View.ld_unit_zero (S := S2048) hz1]
  obtain ⟨-, -, -, -, -, -, e6, e7⟩ := idx_facts t
  funext y
  have hy : (y : S1024x2048.Idx) = ix2 (n0 := 1024) (n1 := 2048) (y 0) (y 1) := eq_ix2 (n0 := 1024) (n1 := 2048) y
  show k0_pay1 (F := Ideal) (iblk m c 0 t) (iblk m c 1 t) (iblk m c 2 t) y
    = fused (V m c main_v8) (V m c main_v7) (V m c main_arg2) (((cfg0.win 3).blk t).view.emb y)
  refine (congrArg (k0_pay1 (F := Ideal) (iblk m c 0 t) (iblk m c 1 t) (iblk m c 2 t)) hy).trans ?_
  refine point_eq (iblk m c 0 t) (iblk m c 1 t) (iblk m c 2 t) (V m c main_v8) (V m c main_v7) (V m c main_arg2)
    (rowOf t (y 0)) (y 0) (y 1) (((cfg0.win 3).blk t).view.emb y)
    (fun k => rows_apply m c t (y 0) k) (fun k => weight_apply m c t (y 0) (y 1) k) (bias_apply m c t (y 1)) ?_ ?_
  · apply Fin.ext
    show win0_3.index t 0 * 1024 + 1 * (y 0).val = t.val * 1024 + (y 0).val
    rw [e6]; omega
  · apply Fin.ext
    show win0_3.index t 1 * 2048 + 1 * (y 1).val = (y 1).val
    rw [e7]; omega

/-- An index of the result is in point `t`'s block iff each coordinate is in the block's range on its axis. -/
theorem mem_blk (t : Fin cfg0.N) (i : S32768x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v9).slice (win0_3.rect t)).set ↔ _
  rw [View.set_slice_whole, Rect.mem_set_unit]
  exact Iff.rfl

/-- Every index of the result is in the block of the point its row falls in. -/
theorem cover (i : S32768x2048.Idx) : ∃ t : Fin cfg0.N, (cfg0.win 3).flush t = true ∧ i ∈ ((cfg0.win 3).blk t).view.set := by
  have h0 : (i 0).val < 32768 := idx2_lt0 i
  have h1 : (i 1).val < 2048 := idx2_lt1 i
  have hN : cfg0.N = 32 := N_0
  refine ⟨⟨(i 0).val / 1024, by omega⟩, flush0_3 _, ?_⟩
  rw [mem_blk]
  obtain ⟨-, -, -, -, -, -, e6, e7⟩ := idx_facts ⟨(i 0).val / 1024, by omega⟩
  intro a
  match a with
  | ⟨0, _⟩ =>
    show win0_3.index _ 0 * 1024 ≤ (i 0).val ∧ (i 0).val < win0_3.index _ 0 * 1024 + 1024
    rw [e6]; show (i 0).val / 1024 * 1024 ≤ (i 0).val ∧ (i 0).val < (i 0).val / 1024 * 1024 + 1024; omega
  | ⟨1, _⟩ =>
    show win0_3.index _ 1 * 2048 ≤ (i 1).val ∧ (i 1).val < win0_3.index _ 1 * 2048 + 2048
    rw [e7]; omega

/-- The result array after the run is the fused arrangement of the operand arrays as the launch finds them. -/
theorem final (c : Dev nD) :
    (dats m 0 c).arrAt 3 cfg0.N = fused (V m c main_v8) (V m c main_v7) (V m c main_arg2) :=
  (dats m 0 c).arrAt_eq_of_cover 3 (fused (V m c main_v8) (V m c main_v7) (V m c main_arg2))
    (fun t _ => flushed_eq m c t) cover

end Cert.KernelIdeal.Whole

end
-- ==== Proof.HostWeights.lean ====
/-
  What the launch finds in its operand arrays. Before the launch the host computes, for every segment `e`, the merged
  weight `W + s e · (b e · a e)` — a batched product of `b : [8, 2048, 16]` with `a : [8, 16, 2048]`, the factor `s`
  and the shared weight `W` broadcast over the segments — and narrows it and `x` to a shorter float format, which over
  the extended reals changes nothing. So the launch's first operand is `x` and its second is `merged W a b s` of the
  specification.
-/
import proofs.«159621_j71743133712455_2_alg».proof.Proof.Gen.KernelIdeal.Frame
import proofs.«159621_j71743133712455_2_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx Cert.SegLinear

/-! ## The batched product's operand indices -/

theorem lhs_batch (i : S8x2048x2048.Idx) (k : dot_S8x2048x16_S8x16x2048_S8x2048x2048_2_1_1_2_0_0.contr.Idx) : (dot_S8x2048x16_S8x16x2048_S8x2048x2048_2_1_1_2_0_0.lhsIdx i k 0).val = (i 0).val := by
  unfold DotDims.lhsIdx
  rw [dif_pos (show (0 : Fin S8x2048x16.rank) ∈ dot_S8x2048x16_S8x16x2048_S8x2048x2048_2_1_1_2_0_0.lhsBatch by decide)]
  rfl

theorem lhs_row (i : S8x2048x2048.Idx) (k : dot_S8x2048x16_S8x16x2048_S8x2048x2048_2_1_1_2_0_0.contr.Idx) : (dot_S8x2048x16_S8x16x2048_S8x2048x2048_2_1_1_2_0_0.lhsIdx i k 1).val = (i 1).val := by
  unfold DotDims.lhsIdx
  rw [dif_neg (show ¬(1 : Fin S8x2048x16.rank) ∈ dot_S8x2048x16_S8x16x2048_S8x2048x2048_2_1_1_2_0_0.lhsBatch by decide),
    dif_pos (show (1 : Fin S8x2048x16.rank) ∈ dot_S8x2048x16_S8x16x2048_S8x2048x2048_2_1_1_2_0_0.lhsNonContracting by decide)]
  rfl

theorem lhs_contr (i : S8x2048x2048.Idx) (k : dot_S8x2048x16_S8x16x2048_S8x2048x2048_2_1_1_2_0_0.contr.Idx) : (dot_S8x2048x16_S8x16x2048_S8x2048x2048_2_1_1_2_0_0.lhsIdx i k 2).val = (k ⟨0, by decide⟩).val :=
  dot_S8x2048x16_S8x16x2048_S8x2048x2048_2_1_1_2_0_0.lhsIdx_val_of_single rfl i k

theorem rhs_batch (i : S8x2048x2048.Idx) (k : dot_S8x2048x16_S8x16x2048_S8x2048x2048_2_1_1_2_0_0.contr.Idx) : (dot_S8x2048x16_S8x16x2048_S8x2048x2048_2_1_1_2_0_0.rhsIdx i k 0).val = (i 0).val := by
  unfold DotDims.rhsIdx
  rw [dif_pos (show (0 : Fin S8x16x2048.rank) ∈ dot_S8x2048x16_S8x16x2048_S8x2048x2048_2_1_1_2_0_0.rhsBatch by decide)]
  rfl

theorem rhs_contr (i : S8x2048x2048.Idx) (k : dot_S8x2048x16_S8x16x2048_S8x2048x2048_2_1_1_2_0_0.contr.Idx) : (dot_S8x2048x16_S8x16x2048_S8x2048x2048_2_1_1_2_0_0.rhsIdx i k 1).val = (k ⟨0, by decide⟩).val :=
  dot_S8x2048x16_S8x16x2048_S8x2048x2048_2_1_1_2_0_0.rhsIdx_val_of_single rfl i k

theorem rhs_col (i : S8x2048x2048.Idx) (k : dot_S8x2048x16_S8x16x2048_S8x2048x2048_2_1_1_2_0_0.contr.Idx) : (dot_S8x2048x16_S8x16x2048_S8x2048x2048_2_1_1_2_0_0.rhsIdx i k 2).val = (i 2).val := by
  unfold DotDims.rhsIdx
  rw [dif_neg (show ¬(2 : Fin S8x16x2048.rank) ∈ dot_S8x2048x16_S8x16x2048_S8x2048x2048_2_1_1_2_0_0.rhsBatch by decide),
    dif_pos (show (2 : Fin S8x16x2048.rank) ∈ dot_S8x2048x16_S8x16x2048_S8x2048x2048_2_1_1_2_0_0.rhsNonContracting by decide)]
  rfl

/-- The batched product at `(e, o, d)`: the sum over the rank axis of `b (e, o, r) · a (e, r, d)`. -/
theorem lowRank_apply (b : FVec Ideal S8x2048x16 .f32) (a : FVec Ideal S8x16x2048 .f32) (e : Fin 8) (o d : Fin 2048) :
    Host.dotGeneral dot_S8x2048x16_S8x16x2048_S8x2048x2048_2_1_1_2_0_0 none b a (ix3 e o d) = ∑ r : Fin 16, (b (ix3 e o r) : EReal) * (a (ix3 e r d) : EReal) := by
  simp only [Host.dotGeneral]
  rw [Ideal.dotGeneral_apply, ← Equiv.sum_comp (contrEquiv1 dot_S8x2048x16_S8x16x2048_S8x2048x2048_2_1_1_2_0_0 16 rfl rfl).symm]
  refine Finset.sum_congr rfl fun r _ => ?_
  have hr := contrEquiv1_symm_val dot_S8x2048x16_S8x16x2048_S8x2048x2048_2_1_1_2_0_0 16 rfl rfl r
  have el : dot_S8x2048x16_S8x16x2048_S8x2048x2048_2_1_1_2_0_0.lhsIdx (ix3 e o d) ((contrEquiv1 dot_S8x2048x16_S8x16x2048_S8x2048x2048_2_1_1_2_0_0 16 rfl rfl).symm r) = ix3 e o r :=
    funext fun ax => Fin.ext (by
      match ax with
      | ⟨0, _⟩ => exact lhs_batch _ _
      | ⟨1, _⟩ => exact lhs_row _ _
      | ⟨2, _⟩ => exact (lhs_contr _ _).trans hr)
  have er : dot_S8x2048x16_S8x16x2048_S8x2048x2048_2_1_1_2_0_0.rhsIdx (ix3 e o d) ((contrEquiv1 dot_S8x2048x16_S8x16x2048_S8x2048x2048_2_1_1_2_0_0 16 rfl rfl).symm r) = ix3 e r d :=
    funext fun ax => Fin.ext (by
      match ax with
      | ⟨0, _⟩ => exact rhs_batch _ _
      | ⟨1, _⟩ => exact (rhs_contr _ _).trans hr
      | ⟨2, _⟩ => exact rhs_col _ _)
  rw [el, er]

/-! ## The two broadcasts over the segments -/

/-- The shared weight given a unit leading axis and repeated for every segment reads `W (o, d)` at `(e, o, d)`. -/
theorem shared_apply (W : FVec Ideal S2048x2048 .f32) (e : Fin 8) (o d : Fin 2048) :
    broadcastInDim S8x2048x2048 ![0, 1, 2] bcast_S1x2048x2048_S8x2048x2048_0_1_2
        (broadcastInDim S1x2048x2048 ![1, 2] bcast_S2048x2048_S1x2048x2048_1_2 W) (ix3 e o d) = W (ix2 o d) := by
  rw [broadcastInDim_apply _ bcast_S1x2048x2048_S8x2048x2048_0_1_2 _ (ix3 e o d) (ix3 (0 : Fin 1) o d) (fun ax => by
    match ax with
    | ⟨0, _⟩ => show 0 = if (1 : Nat) = 1 then 0 else e.val; rw [if_pos rfl]
    | ⟨1, _⟩ => show o.val = if (2048 : Nat) = 1 then 0 else o.val; rw [if_neg (by decide)]
    | ⟨2, _⟩ => show d.val = if (2048 : Nat) = 1 then 0 else d.val; rw [if_neg (by decide)])]
  exact broadcastInDim_apply _ bcast_S2048x2048_S1x2048x2048_1_2 W (ix3 (0 : Fin 1) o d) (ix2 o d) (fun ax => by
    match ax with
    | ⟨0, _⟩ => show o.val = if (2048 : Nat) = 1 then 0 else o.val; rw [if_neg (by decide)]
    | ⟨1, _⟩ => show d.val = if (2048 : Nat) = 1 then 0 else d.val; rw [if_neg (by decide)])

/-- The per-segment factor given two unit trailing axes and repeated over them reads `s e` at `(e, o, d)`. -/
theorem factor_apply (s : FVec Ideal S8 .f32) (e : Fin 8) (o d : Fin 2048) :
    broadcastInDim S8x2048x2048 ![0, 1, 2] bcast_S8x1x1_S8x2048x2048_0_1_2
        (broadcastInDim S8x1x1 ![0] bcast_S8_S8x1x1_0 s) (ix3 e o d) = s (ix1 e) := by
  rw [broadcastInDim_apply _ bcast_S8x1x1_S8x2048x2048_0_1_2 _ (ix3 e o d) (ix3 e (0 : Fin 1) (0 : Fin 1)) (fun ax => by
    match ax with
    | ⟨0, _⟩ => show e.val = if (8 : Nat) = 1 then 0 else e.val; rw [if_neg (by decide)]
    | ⟨1, _⟩ => show 0 = if (1 : Nat) = 1 then 0 else o.val; rw [if_pos rfl]
    | ⟨2, _⟩ => show 0 = if (1 : Nat) = 1 then 0 else d.val; rw [if_pos rfl])]
  exact broadcastInDim_apply _ bcast_S8_S8x1x1_0 s (ix3 e (0 : Fin 1) (0 : Fin 1)) (ix1 e) (fun ax => by
    match ax with
    | ⟨0, _⟩ => show e.val = if (8 : Nat) = 1 then 0 else e.val; rw [if_neg (by decide)])

/-! ## The merged weight as the host spells it -/

/-- The host's term for the launch's second operand. -/
def hostMerged (W : FVec Ideal S2048x2048 .f32) (a : FVec Ideal S8x16x2048 .f32) (b : FVec Ideal S8x2048x16 .f32)
    (s : FVec Ideal S8 .f32) : FVec Ideal S8x2048x2048 .bf16 :=
  truncf .bf16 (addf
    (broadcastInDim S8x2048x2048 ![0, 1, 2] bcast_S1x2048x2048_S8x2048x2048_0_1_2
      (broadcastInDim S1x2048x2048 ![1, 2] bcast_S2048x2048_S1x2048x2048_1_2 W))
    (mulf
      (broadcastInDim S8x2048x2048 ![0, 1, 2] bcast_S8x1x1_S8x2048x2048_0_1_2 (broadcastInDim S8x1x1 ![0] bcast_S8_S8x1x1_0 s))
      (Host.dotGeneral dot_S8x2048x16_S8x16x2048_S8x2048x2048_2_1_1_2_0_0 none b a))) bitsLt_bf16_f32

/-- It is the specification's merged weight. -/
theorem hostMerged_eq (W : FVec Ideal S2048x2048 .f32) (a : FVec Ideal S8x16x2048 .f32) (b : FVec Ideal S8x2048x16 .f32)
    (s : FVec Ideal S8 .f32) : (hostMerged W a b s : S8x2048x2048.Idx → EReal) = merged W a b s := by
  funext j
  obtain ⟨e, o, d, rfl⟩ : ∃ (e : Fin 8) (o d : Fin 2048), j = ix3 e o d := ⟨j 0, j 1, j 2, eq_ix3 j⟩
  unfold hostMerged
  rw [truncf_apply, addf_apply, mulf_apply, shared_apply, factor_apply, lowRank_apply]
  rfl

variable (m : (ℓ : Loc nD τ sig) → Buf (Elt Ideal) ℓ)

/-- The launch's second operand is the merged weight of the argument arrays. -/
theorem V_merged (c : Dev nD) :
    (V m c main_v7 : S8x2048x2048.Idx → EReal)
      = merged (m ((c : Thread nD τ).loc main_arg1)) (m ((c : Thread nD τ).loc main_arg3))
          (m ((c : Thread nD τ).loc main_arg4)) (m ((c : Thread nD τ).loc main_arg5)) := by
  rw [← hostMerged_eq]
  dsimp only [Gen.V, Gen.hostOps0]
  after_results
  rfl

/-- The launch's first operand is `x`: narrowing the format is the identity over the extended reals. -/
theorem V_rows (c : Dev nD) :
    (V m c main_v8 : S32768x2048.Idx → EReal) = m ((c : Thread nD τ).loc main_arg0) := by
  dsimp only [Gen.V, Gen.hostOps0]
  after_results
  rfl

end Cert.KernelIdeal.HostValue

end
-- ==== Proof.Finite.lean ====
/-
  What the precondition gives: every entry of every argument array is a real number. The precondition is the
  conjunction, over the six arrays, of "every entry's absolute value is below +∞"; an extended real whose absolute
  value `max x (-x)` is below `⊤` is neither `⊤` nor `⊥`.
-/
import proofs.«159621_j71743133712455_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Finite

open Cert.Pre_finite_inputs Idealize.ShloMosaic Idealize.ShloMosaic.ValueIdx

variable [Cert.Pre_finite_inputs.Facts]

instance : Subsingleton S_.Idx := ⟨fun a b => funext fun d => d.elim0⟩

/-- The word the precondition compares against denotes `+∞`. -/
theorem top_word : Ideal.ofBits .f32 0x7F800000#32 = (⊤ : EReal) := by simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [top_word] at h
  have hlt : max x (-x) < ⊤ := by
    by_contra hn
    simp [Ideal.cmp, hn] at h
  induction x using EReal.rec with
  | bot => simp at hlt
  | coe r => exact ⟨r, rfl⟩
  | top => simp at hlt

/-- One array's conjunct: if "all entries have absolute value below `+∞`" holds, every entry is a real. -/
theorem all_real {s : Shape} {axes : List (Fin s.rank)} (x : FVec Ideal s .f32) (init : IVec S_ 1)
    (h : s.ReducesTo axes S_) (hu : 0 < S_.numel) (hb : S_.BroadcastsInDim s (![] : Fin 0 → Fin s.rank))
    (e : Host.reduce IntOp.andi
        (cmpf .olt (Host.absf x) (broadcastInDim s ![] hb (constant (F := Ideal) S_ .f32 0x7F800000#32))) init h hu ix0 = 1#1)
    (i : s.Idx) : ∃ r : ℝ, x i = (r : EReal) := by
  have hi : cmpf .olt (Host.absf x) (broadcastInDim s ![] hb (constant (F := Ideal) S_ .f32 0x7F800000#32)) i = 1#1 :=
    Host.reduce_andi_all _ init h hu ix0 e i
  rw [cmpf_apply, broadcastInDim_apply _ hb _ i ix0 (fun a => a.elim0)] at hi
  exact real_of_abs_lt (x i) hi

/-- The whole precondition: all six arrays have real entries. -/
theorem reals_of_pre (x0 : FVec Ideal S32768x2048 .f32) (x1 : FVec Ideal S2048x2048 .f32) (x2 : FVec Ideal S2048 .f32)
    (x3 : FVec Ideal S8x16x2048 .f32) (x4 : FVec Ideal S8x2048x16 .f32) (x5 : FVec Ideal S8 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h0 := congrFun h ix0
  dsimp only [fn, fn_part1] at h0
  change IntOp.andi _ _ = 1#1 at h0
  obtain ⟨h01234, e5⟩ := IntOp.andi_eq_one.1 h0
  change IntOp.andi _ _ = 1#1 at h01234
  obtain ⟨h0123, e4⟩ := IntOp.andi_eq_one.1 h01234
  change IntOp.andi _ _ = 1#1 at h0123
  obtain ⟨h012, e3⟩ := IntOp.andi_eq_one.1 h0123
  change IntOp.andi _ _ = 1#1 at h012
  obtain ⟨h01, e2⟩ := IntOp.andi_eq_one.1 h012
  change IntOp.andi _ _ = 1#1 at h01
  obtain ⟨e0, e1⟩ := IntOp.andi_eq_one.1 h01
  exact ⟨all_real x0 _ _ _ _ e0, all_real x1 _ _ _ _ e1, all_real x2 _ _ _ _ e2, all_real x3 _ _ _ _ e3,
    all_real x4 _ _ _ _ e4, all_real x5 _ _ _ _ e5⟩

end Cert.Pre_finite_inputs.Finite

end
-- ==== Proof.KernelValue.lean ====
/-
  The kernel's result as a function of the argument arrays. After the run the result array is the fused arrangement of
  `x`, the merged weights and the bias; when every argument entry is a real number — which the precondition gives —
  that is the split arrangement, by the specification's law.
-/
import proofs.«159621_j71743133712455_2_alg».proof.Proof.Whole
import proofs.«159621_j71743133712455_2_alg».proof.Proof.HostWeights
import proofs.«159621_j71743133712455_2_alg».proof.Proof.Finite
import proofs.«159621_j71743133712455_2_alg».proof.Proof.Gen.Pre_finite_inputs

noncomputable section

namespace Cert.KernelIdeal.KernelValue

open Cert.KernelIdeal Cert.KernelIdeal.Gen Idealize.ShloMosaic Idealize.ShloMosaic.TcCoe Idealize.SL.Sem
open Cert.SegLinear

variable (m : (ℓ : Loc nD τ sig) → Buf (Elt Ideal) ℓ)

/-- After the run the result array is the fused arrangement over the merged weights of the argument arrays. -/
theorem result_eq_fused (c : Dev nD) :
    (dats m 0 c).arrAt 3 cfg0.N
      = fused (m ((c : Thread nD τ).loc main_arg0))
          (merged (m ((c : Thread nD τ).loc main_arg1)) (m ((c : Thread nD τ).loc main_arg3))
            (m ((c : Thread nD τ).loc main_arg4)) (m ((c : Thread nD τ).loc main_arg5)))
          (m ((c : Thread nD τ).loc main_arg2)) := by
  refine (Whole.final m c).trans ?_
  rw [HostValue.V_rows m c, HostValue.V_merged m c, V_main_arg2 m c]

/-- Under the precondition it is the split arrangement of the argument arrays. -/
theorem result_eq_split (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (dats m 0 c).arrAt 3 cfg0.N
      = split (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (result_eq_fused m c).trans ?_
  obtain ⟨r0, r1, r2, r3, r4, r5⟩ := Cert.Pre_finite_inputs.Finite.reals_of_pre _ _ _ _ _ _ hpre
  choose x hx using r0
  choose W hW using r1
  choose bias hbias using r2
  choose a ha using r3
  choose b hb using r4
  choose s hs using r5
  rw [show m ((c : Thread nD τ).loc main_arg0) = (fun i => (x i : EReal)) from funext hx,
    show m ((c : Thread nD τ).loc main_arg1) = (fun i => (W i : EReal)) from funext hW,
    show m ((c : Thread nD τ).loc main_arg2) = (fun i => (bias i : EReal)) from funext hbias,
    show m ((c : Thread nD τ).loc main_arg3) = (fun i => (a i : EReal)) from funext ha,
    show m ((c : Thread nD τ).loc main_arg4) = (fun i => (b i : EReal)) from funext hb,
    show m ((c : Thread nD τ).loc main_arg5) = (fun i => (s i : EReal)) from funext hs]
  exact fused_merged_eq_split x W bias a b s

end Cert.KernelIdeal.KernelValue

end
-- ==== Proof.RefRead.lean ====
/-
  The reference program's result, read one operation at a time, is the `split` arrangement of the specification:
  its base product with the bias row, plus its two-step low-rank path scaled by the segment's factor. The only work is
  on indices: the reference views `x` as `[8, 4096, 2048]` (row `n` is row `n % 4096` of segment `n / 4096`) and
  casts the low-rank result back to `[32768, 2048]`; composed, the two casts send `(n, d)` to `(n, d)`.
-/
import proofs.«159621_j71743133712455_2_alg».proof.Proof.Gen.ReferenceIdeal.Read
import proofs.«159621_j71743133712455_2_alg».proof.Proof.Spec

noncomputable section

namespace Cert.ReferenceIdeal.RefValue

open Cert.ReferenceIdeal Cert.ReferenceIdeal.Read Idealize.ShloMosaic Idealize.ShloMosaic.ValueIdx Cert.SegLinear

/-- The reference's last stage is the split arrangement of the argument arrays. -/
theorem ref_eq_split (x0 : (⟨S32768x2048, .f32⟩ : BufTy).Contents (Elt Ideal)) (x1 : (⟨S2048x2048, .f32⟩ : BufTy).Contents (Elt Ideal))
    (x2 : (⟨S2048, .f32⟩ : BufTy).Contents (Elt Ideal)) (x3 : (⟨S8x16x2048, .f32⟩ : BufTy).Contents (Elt Ideal))
    (x4 : (⟨S8x2048x16, .f32⟩ : BufTy).Contents (Elt Ideal)) (x5 : (⟨S8, .f32⟩ : BufTy).Contents (Elt Ideal)) :
    val_main_v11 (F := Ideal) x0 x1 x2 x3 x4 x5 = split x0 x1 x2 x3 x4 x5 := by
  funext i
  have hn : (i 0).val < 32768 := idx2_lt0 i
  have ho : (i 1).val < 2048 := idx2_lt1 i
  -- the base product's operand indices
  have h0l : ∀ k : Fin 2048, lidx_main_v0 i k = ix2 (i 0) k := fun k => funext fun a => Fin.ext (by
    match a with | ⟨0, _⟩ => rfl | ⟨1, _⟩ => rfl)
  have h0r : ∀ k : Fin 2048, ridx_main_v0 i k = ix2 (i 1) k := fun k => funext fun a => Fin.ext (by
    match a with | ⟨0, _⟩ => rfl | ⟨1, _⟩ => rfl)
  -- the bias row
  have hb : idx_main_v1 (idx_main_v2 i) = ix1 (i 1) := funext fun a => Fin.ext (by
    match a with | ⟨0, _⟩ => rfl)
  -- the segment's factor
  have hs : idx_main_v7 (idx_main_v8 (idx_main_v10 i)) = ix1 (seg (i 0)) := funext fun a => Fin.ext (by
    match a with
    | ⟨0, _⟩ =>
      show ((i 0).val * 2048 + (i 1).val) / 8388608 = (i 0).val / 4096
      omega)
  -- the second low-rank step's right operand
  have h6r : ∀ r : Fin 16, ridx_main_v6 (idx_main_v10 i) r = ix3 (seg (i 0)) (i 1) r := fun r => funext fun a => Fin.ext (by
    match a with
    | ⟨0, _⟩ =>
      show ((i 0).val * 2048 + (i 1).val) / 8388608 = (i 0).val / 4096
      omega
    | ⟨1, _⟩ =>
      show ((i 0).val * 2048 + (i 1).val) % 2048 = (i 1).val
      omega
    | ⟨2, _⟩ => rfl)
  -- the first low-rank step's right operand
  have h5r : ∀ (r : Fin 16) (d : Fin 2048), ridx_main_v5 (lidx_main_v6 (idx_main_v10 i) r) d = ix3 (seg (i 0)) r d :=
    fun r d => funext fun a => Fin.ext (by
      match a with
      | ⟨0, _⟩ =>
        show ((i 0).val * 2048 + (i 1).val) / 8388608 = (i 0).val / 4096
        omega
      | ⟨1, _⟩ => rfl
      | ⟨2, _⟩ => rfl)
  -- its left operand: the two casts composed send `(n, d)` back to `(n, d)`
  have h5l : ∀ (r : Fin 16) (d : Fin 2048), idx_main_v4 (lidx_main_v5 (lidx_main_v6 (idx_main_v10 i) r) d) = ix2 (i 0) d :=
    fun r d => funext fun a => Fin.ext (by
      have hd : d.val < 2048 := d.isLt
      match a with
      | ⟨0, _⟩ =>
        show ((((i 0).val * 2048 + (i 1).val) / 8388608 * 4096 + ((i 0).val * 2048 + (i 1).val) / 2048 % 4096) * 2048 + d.val) / 2048
          = (i 0).val
        omega
      | ⟨1, _⟩ =>
        show ((((i 0).val * 2048 + (i 1).val) / 8388608 * 4096 + ((i 0).val * 2048 + (i 1).val) / 2048 % 4096) * 2048 + d.val) % 2048
          = d.val
        omega)
  rw [val_main_v11_apply, val_main_v3_apply, val_main_v0_apply, val_main_v2_apply, val_main_v1_apply,
    val_main_v10_apply, val_main_v9_apply, val_main_v6_apply, val_main_v8_apply, val_main_v7_apply]
  simp only [val_main_v5_apply, val_main_v4_apply, h0l, h0r, hb, hs, h6r, h5r, h5l, Ideal.addf_def, Ideal.mulf_def]
  rfl

end Cert.ReferenceIdeal.RefValue

end
-- ==== Proof.lean ====
/-
  A linear layer with per-segment low-rank corrections, computed two ways, gives one result over the extended reals.

  The kernel first merges, on the host, each segment's correction into the weight, `W + s e · (b e · a e)`, and then runs
  one product per block of 1024 rows against the weight of the block's segment, adding the bias. The reference computes
  the base product with the bias, and the correction separately as `((x · (a e)ᵀ) · (b e)ᵀ) · s e`, and adds the two.
  Changes of float format are the identity over the extended reals, and the product inside the kernel is the same sum as
  the host's. What separates the two arrangements is distributivity, `x · (w + s · c) = x · w + x · (s · c)`, and an
  exchange of two finite sums; distributivity fails at the infinities, so the precondition is USED: every argument entry
  is a real number, and the law is proved over the reals (Proof/Spec.lean).

  The kernel's side: the host prefix read at an entry (Proof/HostWeights.lean), one grid point's store read at an entry
  (Proof/Body.lean), the 32 blocks assembled into the whole array (Proof/Whole.lean), the precondition read as
  "all entries real" (Proof/Finite.lean), together in Proof/KernelValue.lean. The reference's side: its stages read at an
  entry are the split arrangement (Proof/RefRead.lean). The frames of the two kernel programs and the runs of both
  idealized programs are the generated modules'; no rewrite was applied in printing the idealized kernel, so there is
  nothing to preserve.
-/
import proofs.«159621_j71743133712455_2_alg».proof.Defs
import proofs.«159621_j71743133712455_2_alg».proof.Proof.Gen.Kernel
import proofs.«159621_j71743133712455_2_alg».proof.Proof.Gen.Kernel.Skeleton
import proofs.«159621_j71743133712455_2_alg».proof.Proof.Gen.Kernel.Launch
import proofs.«159621_j71743133712455_2_alg».proof.Proof.Gen.Kernel.Points
import proofs.«159621_j71743133712455_2_alg».proof.Proof.Gen.Kernel.Frame
import proofs.«159621_j71743133712455_2_alg».proof.Proof.Gen.KernelIdeal
import proofs.«159621_j71743133712455_2_alg».proof.Proof.Gen.KernelIdeal.Skeleton
import proofs.«159621_j71743133712455_2_alg».proof.Proof.Gen.KernelIdeal.Launch
import proofs.«159621_j71743133712455_2_alg».proof.Proof.Gen.KernelIdeal.Points
import proofs.«159621_j71743133712455_2_alg».proof.Proof.Gen.KernelIdeal.Frame
import proofs.«159621_j71743133712455_2_alg».proof.Proof.Gen.ReferenceIdeal
import proofs.«159621_j71743133712455_2_alg».proof.Proof.Gen.Pre_finite_inputs
import proofs.«159621_j71743133712455_2_alg».proof.Proof.Gen.KernelIdeal.Value
import proofs.«159621_j71743133712455_2_alg».proof.Proof.Gen.ReferenceIdeal.Run
import proofs.«159621_j71743133712455_2_alg».proof.Proof.Gen.ReferenceIdeal.Read
import proofs.«159621_j71743133712455_2_alg».proof.Proof.KernelValue
import proofs.«159621_j71743133712455_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- Both programs end with the split arrangement of the argument arrays in their result: the kernel by the fused
    arrangement and the law under the precondition, the reference stage by stage. -/
theorem algebraic : Cert.algebraic_KernelIdeal_ReferenceIdeal := by
  intro m ρ m' ρ' hpre hagree
  refine ⟨fun c => Cert.SegLinear.split
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result_eq_split m c (hpre c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v11_eq, Cert.ReferenceIdeal.RefValue.ref_eq_split,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
